-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 75
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S1x800000, .i32⟩
  | .hbm, ⟨32, _⟩ => ⟨S800000, .i32⟩
  | .hbm, ⟨33, _⟩ => ⟨S1x800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S800000x1, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S1x800000, .i32⟩
  | .hbm, ⟨54, _⟩ => ⟨S800000, .i32⟩
  | .hbm, ⟨55, _⟩ => ⟨S1x800000, .i32⟩
  | .hbm, ⟨56, _⟩ => ⟨S800000, .i32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x1, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x64, .f32⟩
  | .hbm, ⟨74, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S1x800000, .i32⟩
  | .hbm, ⟨37, _⟩ => ⟨S800000, .i32⟩
  | .hbm, ⟨38, _⟩ => ⟨S1x800000, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S1x800000, .i32⟩
  | .hbm, ⟨64, _⟩ => ⟨S800000, .i32⟩
  | .hbm, ⟨65, _⟩ => ⟨S1x800000, .i32⟩
  | .hbm, ⟨66, _⟩ => ⟨S800000, .i32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x1, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_6 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result array named.

  @main is six segments: a stretch of host operations, then a pallas call, three times over.  Along a run the buffers'
  contents at the segment boundaries are a fold from the launch memory: a stretch applies its operations, a call leaves
  its result array at what its grid points wrote back and every other buffer as it was.  Every weakly fair execution
  terminates, without a fault, with every unscoped buffer at the last boundary's contents; read at the result buffer that
  is the last call's result array, read at an argument it is the launch contents.  The proof is the library's theorem for
  a program of several regions, applied to the segments of the frame proof, with the result buffer kept in the
  postcondition beside the arguments.
-/
import proofs.«132234_j23089744183867_1_alg».proof.Proof.KernelIdealFrameP

set_option maxRecDepth 16384

noncomputable section

namespace Cert.KernelIdeal.RunNamed

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunNamed

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibHostRowScalar.lean ====
/-
  Host layout steps read at an index written by coordinates, for any element type and any extents, and two
  identities between a reshape and a broadcast.

  A row `[1, b]` copied down `a` rows reads, at `(i, j)`, the row at `j`.  A vector `[b]` broadcast to the single row `[1, b]` reads, at `(u, j)`, the vector at `j`.
  Reshaping a vector `[a]` to the column `[a, 1]` keeps the elements in row-major order, and so does broadcasting it
  along the new unit axis: the two arrays are equal; likewise for the row `[1, b]`.  General; no program is imported.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- A row `[1, b]` copied down `a` rows reads, at `(i, j)`, the row at `j`. -/
theorem broadcastInDim_row_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ => exact (if_pos rfl).symm
  | ⟨1, _⟩ =>
    show j.val = if b = 1 then 0 else j.val
    split
    · have := j.isLt; omega
    · rfl

/-- A vector `[b]` broadcast to the single row `[1, b]` reads, at `(u, j)`, the vector at `j`. -/
theorem broadcastInDim_vec_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- A vector `[a]` broadcast to the column `[a, 1]` reads, at `(i, u)`, the vector at `i`. -/
theorem broadcastInDim_vec_column_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The reshape of a vector to the column `[a, 1]` is its broadcast along the new unit axis. -/
theorem shapeCast_column_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [broadcastInDim_vec_column_apply]
  exact shapeCast_apply x hc _ _ (by
    have hu : u.val = 0 := by omega
    rw [Shape.rowMajor_val_two, Shape.rowMajor_val_one]
    show i.val = i.val * 1 + u.val
    rw [hu, Nat.mul_one, Nat.add_zero])

/-- The reshape of a vector to the row `[1, b]` is its broadcast along the new unit axis. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext j
  obtain ⟨u, i, rfl⟩ : ∃ (u : Fin 1) (i : Fin b), j = ix2 u i := ⟨j 0, j 1, eq_ix2 j⟩
  rw [broadcastInDim_vec_row_apply, shapeCast_a_1a_apply]

end Idealize.ShloMosaic.ValueIdx
-- ==== Proof.Layer.lean ====
/-
  One layer of the network as whole-array functions at the ideal values, and its dense part read at an index.

  A layer is a sparse product followed by a dense one.  The sparse product `spmm feat ei ew` gathers, for every edge e,
  row src(e) of the features (row 1 of the edge table, a negative entry wrapped once by the number of nodes), scales it by
  the edge's weight and adds it into row dst(e) (row 0 of the table) of a zero array.  The dense part multiplies the result by
  a weight matrix, adds a bias row to every row and, in the first two layers, clamps below at zero.  The bias enters as the
  single row [1, n] that both programs build from the bias vector.

  Read at an index (r, c) the dense part is  max (Σ_k a(r,k) · W(k,c) + b(0,c)) 0  (without the max in the last layer): a
  matrix product at the ideal values is the plain sum over the contracted index, a row copied down every row reads the row,
  a scalar spread over an array reads the scalar.
-/
import proofs.«132234_j23089744183867_1_alg».proof.Proof.Gen.ReferenceIdeal
import proofs.«132234_j23089744183867_1_alg».proof.Proof.LibDotRows
import proofs.«132234_j23089744183867_1_alg».proof.Proof.LibHostRowScalar
import Idealize.ShloMosaic.Lib.IdealHost
import Idealize.ShloMosaic.Lib.ValueIdx
import Idealize.ShloMosaic.PureOps.Ideal.Laws

noncomputable section

open scoped BigOperators

namespace Cert.Layer

open Idealize.ShloMosaic Idealize.ShloMosaic.ValueIdx Cert.ReferenceIdeal Cert.ReferenceIdeal.Gen

/-- The sparse product: for every edge, the source row of `feat` times the edge's weight, added into the destination row
    of a zero array. -/
def spmm (feat : FVec Ideal S50000x128 .f32) (ei : IVec S2x800000 32) (ew : FVec Ideal S800000 .f32) :
    FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![0, 0] ei slices_S2x800000_S1x800000_0_0) shapeCasts_S1x800000_S800000)) (mulf (Host.gather gather_S50000x128_S800000x1_S800000x128_1_0_n_n_0_1_1128 feat (broadcastInDim S800000x1 ![0] bcast_S800000_S800000x1_0 (select (cmpi .slt (shapeCast _ (extractStridedSlice S1x800000 ![1, 0] ei slices_S2x800000_S1x800000_1_0) shapeCasts_S1x800000_S800000) (broadcastInDim S800000 ![] bcast_S_S800000 (constantI S_ 32 0#32))) (addi (shapeCast _ (extractStridedSlice S1x800000 ![1, 0] ei slices_S2x800000_S1x800000_1_0) shapeCasts_S1x800000_S800000) (broadcastInDim S800000 ![] bcast_S_S800000 (constantI S_ 32 50000#32))) (shapeCast _ (extractStridedSlice S1x800000 ![1, 0] ei slices_S2x800000_S1x800000_1_0) shapeCasts_S1x800000_S800000)))) (broadcastInDim S800000x128 ![0, 1] bcast_S800000x1_S800000x128_0_1 (broadcastInDim S800000x1 ![0] bcast_S800000_S800000x1_0 ew)))

/-- The dense part of the first two layers: product with the weights, the bias row added to every row, clamped below at
    zero. -/
def denseRelu (a : FVec Ideal S50000x128 .f32) (W : FVec Ideal S128x128 .f32) (brow : FVec Ideal S1x128 .f32) :
    FVec Ideal S50000x128 .f32 :=
  maximumf (addf (Host.dotGeneral dot_S50000x128_S128x128_S50000x128_1_0_0_1_n_n none a W)
      (broadcastInDim S50000x128 ![0, 1] bcast_S1x128_S50000x128_0_1 brow))
    (broadcastInDim S50000x128 ![] bcast_S_S50000x128 (constant S_ .f32 0x00000000#32))

/-- The dense part of the last layer: product with the weights and the bias row added to every row. -/
def denseLast (a : FVec Ideal S50000x128 .f32) (W : FVec Ideal S128x64 .f32) (brow : FVec Ideal S1x64 .f32) :
    FVec Ideal S50000x64 .f32 :=
  addf (Host.dotGeneral dot_S50000x128_S128x64_S50000x64_1_0_0_1_n_n none a W)
    (broadcastInDim S50000x64 ![0, 1] bcast_S1x64_S50000x64_0_1 brow)

/-- The first two layers' dense part at row `r`, column `q`. -/
theorem denseRelu_apply (a : FVec Ideal S50000x128 .f32) (W : FVec Ideal S128x128 .f32) (brow : FVec Ideal S1x128 .f32)
    (r : Fin 50000) (q : Fin 128) :
    denseRelu a W brow (ix2 r q)
      = max (∑ k : Fin 128, a (ix2 r k) * W (ix2 k q) + brow (ix2 (0 : Fin 1) q)) (Ideal.ofBits .f32 0x00000000#32) := by
  have hprod := dotGeneral_rows dot_S50000x128_S128x128_S50000x128_1_0_0_1_n_n none .single rfl rfl (fun _ _ => rfl)
    (fun _ _ => rfl) (fun _ _ => rfl) (fun _ _ => rfl) a W r q
  have hbias := broadcastInDim_row_apply brow bcast_S1x128_S50000x128_0_1 r q
  have hzero : broadcastInDim S50000x128 ![] bcast_S_S50000x128 (constant (F := Ideal) S_ .f32 0x00000000#32) (ix2 r q)
      = Ideal.ofBits .f32 0x00000000#32 := broadcastInDim_scalar_apply _ _ _
  unfold denseRelu
  exact congrArg₂ max (congrArg₂ (· + ·) hprod hbias) hzero

/-- The last layer's dense part at row `r`, column `q`. -/
theorem denseLast_apply (a : FVec Ideal S50000x128 .f32) (W : FVec Ideal S128x64 .f32) (brow : FVec Ideal S1x64 .f32)
    (r : Fin 50000) (q : Fin 64) :
    denseLast a W brow (ix2 r q) = ∑ k : Fin 128, a (ix2 r k) * W (ix2 k q) + brow (ix2 (0 : Fin 1) q) := by
  have hprod := dotGeneral_rows dot_S50000x128_S128x64_S50000x64_1_0_0_1_n_n none .single rfl rfl (fun _ _ => rfl)
    (fun _ _ => rfl) (fun _ _ => rfl) (fun _ _ => rfl) a W r q
  have hbias := broadcastInDim_row_apply brow bcast_S1x64_S50000x64_0_1 r q
  unfold denseLast
  exact congrArg₂ (· + ·) hprod hbias

/-- The whole network: three layers, the bias of each as the single row built from its vector. -/
def net (x : FVec Ideal S50000x128 .f32) (ei : IVec S2x800000 32) (ew : FVec Ideal S800000 .f32)
    (W1 : FVec Ideal S128x128 .f32) (b1 : FVec Ideal S128 .f32) (W2 : FVec Ideal S128x128 .f32) (b2 : FVec Ideal S128 .f32)
    (W3 : FVec Ideal S128x64 .f32) (b3 : FVec Ideal S64 .f32) : FVec Ideal S50000x64 .f32 :=
  denseLast (spmm (denseRelu (spmm (denseRelu (spmm x ei ew) W1 (broadcastInDim S1x128 ![1] bcast_S128_S1x128_1 b1)) ei ew)
      W2 (broadcastInDim S1x128 ![1] bcast_S128_S1x128_1 b2)) ei ew)
    W3 (broadcastInDim S1x64 ![1] bcast_S64_S1x64_1 b3)

end Cert.Layer

end
-- ==== Proof.Dense0.lean ====
/-
  The first dense kernel, read as one whole-array function.

  The call runs over ten grid points; point t works on rows 5000·t … 5000·t + 4999 of its input, with the whole weight matrix
  and the whole bias row, and writes the same rows of its result.  Inside a block the stored value at (p, q) is
  max (Σ_k x(p,k) · w(k,q) + b(0,q)) 0: the change of float format is the identity at the ideal values, the product into a zero
  accumulator is the plain sum over the contracted index, and the bias row copied down the block reads the row.  Row p of
  block t is row 5000·t + p of the arrays, every row lies in exactly the block of its quotient by 5000, so the ten blocks
  written back make up the dense part of the layer applied to the arrays the call was entered with — whatever those arrays are.
-/
import proofs.«132234_j23089744183867_1_alg».proof.Proof.KernelIdealFrameP
import proofs.«132234_j23089744183867_1_alg».proof.Proof.Layer
import Idealize.ShloMosaic.Lib.Pipeline.Value
import Idealize.ShloMosaic.Lib.ValueLayout

set_option maxRecDepth 16384

noncomputable section

open scoped BigOperators

namespace Cert.KernelIdeal.Dense0

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat)

theorem zero_offsets : (![0, 0] : Fin 2 → Nat) = fun _ => 0 := funext fun a => by fin_cases a <;> rfl

/-- The value the body stores, at row `p` and column `q` of the block, from the three blocks it loads. -/
theorem stored_apply (x0 : Vec Ideal S5000x128 .f32) (x1 : Vec Ideal S128x128 .f32) (x2 : Vec Ideal S1x128 .f32)
    (p : Fin 5000) (q : Fin 128) :
    k0_pay1 (F := Ideal) x0 x1 x2 (ix2 p q)
      = max (∑ k : Fin 128, x0 (ix2 p k) * x1 (ix2 k q) + x2 (ix2 (0 : Fin 1) q)) (Ideal.ofBits .f32 0x00000000#32) := by
  have hprod : matmul (F := Ideal) dot_S5000x128_S128x128_S5000x128_1_0_0_1_n_n none
        (truncf .bf16 (shapeCast S5000x128 x0 shapeCasts_S5000x128_S5000x128) bitsLt_bf16_f32)
        (truncf .bf16 x1 bitsLt_bf16_f32) (constant S5000x128 .f32 0x00000000#32) (ix2 p q)
      = ∑ k : Fin 128, x0 (ix2 p k) * x1 (ix2 k q) := by
    refine (matmul_zero_rows dot_S5000x128_S128x128_S5000x128_1_0_0_1_n_n none rfl rfl (fun _ _ => rfl) (fun _ _ => rfl)
      (fun _ _ => rfl) (fun _ _ => rfl) _ _ p q).trans ?_
    refine Finset.sum_congr rfl fun k _ => ?_
    exact congrArg₂ (· * ·) (congrFun (shapeCast_self x0 shapeCasts_S5000x128_S5000x128) (ix2 p k)) rfl
  have hbias : broadcastTo S5000x128 (shapeCast S1x128 x2 shapeCasts_S1x128_S1x128) broadcasts_S1x128_S5000x128 (ix2 p q)
      = x2 (ix2 (0 : Fin 1) q) :=
    (broadcastTo_1b_ab_apply (shapeCast S1x128 x2 shapeCasts_S1x128_S1x128) broadcasts_S1x128_S5000x128 p q).trans
      (congrFun (shapeCast_self x2 shapeCasts_S1x128_S1x128) _)
  unfold k0_pay1
  exact congrArg₂ max (congrArg₂ (· + ·) hprod hbias) rfl

/-- Row `p` of block `t` as a row of the whole array. -/
def rowOf (t : Fin cfg0.N) (p : Fin 5000) : Fin 50000 :=
  ⟨t.val * 5000 + p.val, by have ht : t.val < 10 := lt_of_lt_of_eq t.isLt N_0; have := p.isLt; omega⟩

/-- The printed index maps over the grid: the input and the result move one block of rows per point, the weights and the
    bias row stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem emb_in (t : Fin cfg0.N) (p : Fin 5000) (k : Fin 128) :
    ((cfg0.win 0).blk t).view.emb (ix2 p k) = (ix2 (rowOf t p) k : S50000x128.Idx) := by
  obtain ⟨e0, e1, -, -, -, -, -, -⟩ := index_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_w (t : Fin cfg0.N) (k : Fin 128) (q : Fin 128) :
    ((cfg0.win 1).blk t).view.emb (ix2 k q) = (ix2 k q : S128x128.Idx) := by
  obtain ⟨-, -, e2, e3, -, -, -, -⟩ := index_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem emb_b (t : Fin cfg0.N) (u : Fin 1) (q : Fin 128) :
    ((cfg0.win 2).blk t).view.emb (ix2 u q) = (ix2 u q : S1x128.Idx) := by
  obtain ⟨-, -, -, -, e4, e5, -, -⟩ := index_facts t
  funext a; apply Fin.ext
  match a with
  | ⟨0, _⟩ => show win0_2.index t (0 : Fin 2) * 1 + 1 * u.val = u.val; omega
  | ⟨1, _⟩ => show win0_2.index t (1 : Fin 2) * 128 + 1 * q.val = q.val; omega

theorem emb_out (t : Fin cfg0.N) (p : Fin 5000) (q : Fin 128) :
    ((cfg0.win 3).blk t).view.emb (ix2 p q) = (ix2 (rowOf t p) q : S50000x128.Idx) := by
  obtain ⟨-, -, -, -, -, -, e6, e7⟩ := index_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

variable (V : (c : Dev nD) → (b : Ref sig .tc) → Buf (Elt Ideal) ((c : Thread nD τ).loc b))

/-- What point `t` writes back is block `t` of the layer's dense part of the arrays the call was entered with. -/
theorem flushed_eq (c : Dev nD) (t : Fin cfg0.N) :
    (dat0 (F := Ideal) V c).flushed 3 t
      = ((cfg0.win 3).blk t).view.read (Elt Ideal)
          (Cert.Layer.denseRelu (V c main_v16) (V c main_arg3) (V c main_v17)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  refine (stored_apply (iblk0 V c 0 t) (iblk0 V c 1 t) (iblk0 V c 2 t) p q).trans ?_
  show _ = Cert.Layer.denseRelu (V c main_v16) (V c main_arg3) (V c main_v17) (((cfg0.win 3).blk t).view.emb (ix2 p q))
  rw [emb_out t p q, Cert.Layer.denseRelu_apply]
  have hin : ∀ k : Fin 128, iblk0 V c 0 t (ix2 p k) = V c main_v16 (ix2 (rowOf t p) k) :=
    fun k => congrArg (V c main_v16) (emb_in t p k)
  have hw : ∀ k : Fin 128, iblk0 V c 1 t (ix2 k q) = V c main_arg3 (ix2 k q) :=
    fun k => congrArg (V c main_arg3) (emb_w t k q)
  have hb : iblk0 V c 2 t (ix2 (0 : Fin 1) q) = V c main_v17 (ix2 (0 : Fin 1) q) :=
    congrArg (V c main_v17) (emb_b t 0 q)
  rw [hb]
  simp only [hin, hw]

/-- A row of the result lies in the block of its quotient by 5000. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, lt_of_lt_of_eq (by omega : (i 0).val / 5000 < 10) N_0.symm⟩
  obtain ⟨-, -, -, -, -, -, e6, e7⟩ := index_facts t
  have e6' : win0_3.index t (0 : Fin 2) = (i 0).val / 5000 := e6
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY when the call returns: the layer's dense part of the arrays it was entered with. -/
theorem value (c : Dev nD) :
    (dat0 (F := Ideal) V c).arrAt 3 cfg0.N
      = Cert.Layer.denseRelu (V c main_v16) (V c main_arg3) (V c main_v17) :=
  (dat0 (F := Ideal) V c).arrAt_eq_of_cover 3 _ (fun t _ => flushed_eq V c t) covered

end Cert.KernelIdeal.Dense0

end
-- ==== Proof.Dense1.lean ====
/-
  The second dense kernel, read as one whole-array function.

  The call runs over ten grid points; point t works on rows 5000·t … 5000·t + 4999 of its input, with the whole weight matrix
  and the whole bias row, and writes the same rows of its result.  Inside a block the stored value at (p, q) is
  max (Σ_k x(p,k) · w(k,q) + b(0,q)) 0: the change of float format is the identity at the ideal values, the product into a zero
  accumulator is the plain sum over the contracted index, and the bias row copied down the block reads the row.  Row p of
  block t is row 5000·t + p of the arrays, every row lies in exactly the block of its quotient by 5000, so the ten blocks
  written back make up the dense part of the layer applied to the arrays the call was entered with — whatever those arrays are.
-/
import proofs.«132234_j23089744183867_1_alg».proof.Proof.KernelIdealFrameP
import proofs.«132234_j23089744183867_1_alg».proof.Proof.Layer
import Idealize.ShloMosaic.Lib.Pipeline.Value
import Idealize.ShloMosaic.Lib.ValueLayout

set_option maxRecDepth 16384

noncomputable section

open scoped BigOperators

namespace Cert.KernelIdeal.Dense1

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat)

theorem zero_offsets : (![0, 0] : Fin 2 → Nat) = fun _ => 0 := funext fun a => by fin_cases a <;> rfl

/-- The value the body stores, at row `p` and column `q` of the block, from the three blocks it loads. -/
theorem stored_apply (x0 : Vec Ideal S5000x128 .f32) (x1 : Vec Ideal S128x128 .f32) (x2 : Vec Ideal S1x128 .f32)
    (p : Fin 5000) (q : Fin 128) :
    k1_pay1 (F := Ideal) x0 x1 x2 (ix2 p q)
      = max (∑ k : Fin 128, x0 (ix2 p k) * x1 (ix2 k q) + x2 (ix2 (0 : Fin 1) q)) (Ideal.ofBits .f32 0x00000000#32) := by
  have hprod : matmul (F := Ideal) dot_S5000x128_S128x128_S5000x128_1_0_0_1_n_n none
        (truncf .bf16 (shapeCast S5000x128 x0 shapeCasts_S5000x128_S5000x128) bitsLt_bf16_f32)
        (truncf .bf16 x1 bitsLt_bf16_f32) (constant S5000x128 .f32 0x00000000#32) (ix2 p q)
      = ∑ k : Fin 128, x0 (ix2 p k) * x1 (ix2 k q) := by
    refine (matmul_zero_rows dot_S5000x128_S128x128_S5000x128_1_0_0_1_n_n none rfl rfl (fun _ _ => rfl) (fun _ _ => rfl)
      (fun _ _ => rfl) (fun _ _ => rfl) _ _ p q).trans ?_
    refine Finset.sum_congr rfl fun k _ => ?_
    exact congrArg₂ (· * ·) (congrFun (shapeCast_self x0 shapeCasts_S5000x128_S5000x128) (ix2 p k)) rfl
  have hbias : broadcastTo S5000x128 (shapeCast S1x128 x2 shapeCasts_S1x128_S1x128) broadcasts_S1x128_S5000x128 (ix2 p q)
      = x2 (ix2 (0 : Fin 1) q) :=
    (broadcastTo_1b_ab_apply (shapeCast S1x128 x2 shapeCasts_S1x128_S1x128) broadcasts_S1x128_S5000x128 p q).trans
      (congrFun (shapeCast_self x2 shapeCasts_S1x128_S1x128) _)
  unfold k1_pay1
  exact congrArg₂ max (congrArg₂ (· + ·) hprod hbias) rfl

/-- Row `p` of block `t` as a row of the whole array. -/
def rowOf (t : Fin cfg1.N) (p : Fin 5000) : Fin 50000 :=
  ⟨t.val * 5000 + p.val, by have ht : t.val < 10 := lt_of_lt_of_eq t.isLt N_1; have := p.isLt; omega⟩

/-- The printed index maps over the grid: the input and the result move one block of rows per point, the weights and the
    bias row stay. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem emb_in (t : Fin cfg1.N) (p : Fin 5000) (k : Fin 128) :
    ((cfg1.win 0).blk t).view.emb (ix2 p k) = (ix2 (rowOf t p) k : S50000x128.Idx) := by
  obtain ⟨e0, e1, -, -, -, -, -, -⟩ := index_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb_w (t : Fin cfg1.N) (k : Fin 128) (q : Fin 128) :
    ((cfg1.win 1).blk t).view.emb (ix2 k q) = (ix2 k q : S128x128.Idx) := by
  obtain ⟨-, -, e2, e3, -, -, -, -⟩ := index_facts t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

theorem emb_b (t : Fin cfg1.N) (u : Fin 1) (q : Fin 128) :
    ((cfg1.win 2).blk t).view.emb (ix2 u q) = (ix2 u q : S1x128.Idx) := by
  obtain ⟨-, -, -, -, e4, e5, -, -⟩ := index_facts t
  funext a; apply Fin.ext
  match a with
  | ⟨0, _⟩ => show win1_2.index t (0 : Fin 2) * 1 + 1 * u.val = u.val; omega
  | ⟨1, _⟩ => show win1_2.index t (1 : Fin 2) * 128 + 1 * q.val = q.val; omega

theorem emb_out (t : Fin cfg1.N) (p : Fin 5000) (q : Fin 128) :
    ((cfg1.win 3).blk t).view.emb (ix2 p q) = (ix2 (rowOf t p) q : S50000x128.Idx) := by
  obtain ⟨-, -, -, -, -, -, e6, e7⟩ := index_facts t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

variable (V : (c : Dev nD) → (b : Ref sig .tc) → Buf (Elt Ideal) ((c : Thread nD τ).loc b))

/-- What point `t` writes back is block `t` of the layer's dense part of the arrays the call was entered with. -/
theorem flushed_eq (c : Dev nD) (t : Fin cfg1.N) :
    (dat1 (F := Ideal) V c).flushed 3 t
      = ((cfg1.win 3).blk t).view.read (Elt Ideal)
          (Cert.Layer.denseRelu (V c main_v35) (V c main_arg5) (V c main_v36)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  refine (stored_apply (iblk1 V c 0 t) (iblk1 V c 1 t) (iblk1 V c 2 t) p q).trans ?_
  show _ = Cert.Layer.denseRelu (V c main_v35) (V c main_arg5) (V c main_v36) (((cfg1.win 3).blk t).view.emb (ix2 p q))
  rw [emb_out t p q, Cert.Layer.denseRelu_apply]
  have hin : ∀ k : Fin 128, iblk1 V c 0 t (ix2 p k) = V c main_v35 (ix2 (rowOf t p) k) :=
    fun k => congrArg (V c main_v35) (emb_in t p k)
  have hw : ∀ k : Fin 128, iblk1 V c 1 t (ix2 k q) = V c main_arg5 (ix2 k q) :=
    fun k => congrArg (V c main_arg5) (emb_w t k q)
  have hb : iblk1 V c 2 t (ix2 (0 : Fin 1) q) = V c main_v36 (ix2 (0 : Fin 1) q) :=
    congrArg (V c main_v36) (emb_b t 0 q)
  rw [hb]
  simp only [hin, hw]

/-- A row of the result lies in the block of its quotient by 5000. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v37).slice (win1_3.rect t)).set ↔ _
  rw [View.set_slice_whole, Rect.mem_set_unit]
  exact Iff.rfl

theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 5000, lt_of_lt_of_eq (by omega : (i 0).val / 5000 < 10) N_1.symm⟩
  obtain ⟨-, -, -, -, -, -, e6, e7⟩ := index_facts t
  have e6' : win1_3.index t (0 : Fin 2) = (i 0).val / 5000 := e6
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE RESULT ARRAY when the call returns: the layer's dense part of the arrays it was entered with. -/
theorem value (c : Dev nD) :
    (dat1 (F := Ideal) V c).arrAt 3 cfg1.N
      = Cert.Layer.denseRelu (V c main_v35) (V c main_arg5) (V c main_v36) :=
  (dat1 (F := Ideal) V c).arrAt_eq_of_cover 3 _ (fun t _ => flushed_eq V c t) covered

end Cert.KernelIdeal.Dense1

end
-- ==== Proof.Dense2.lean ====
/-
  The third dense kernel, read as one whole-array function.

  The call runs over ten grid points; point t works on rows 5000·t … 5000·t + 4999 of its input, with the whole weight matrix
  and the whole bias row, and writes the same rows of its result.  Inside a block the stored value at (p, q) is
  Σ_k x(p,k) · w(k,q) + b(0,q): the change of float format is the identity at the ideal values, the product into a zero
  accumulator is the plain sum over the contracted index, and the bias row copied down the block reads the row.  Row p of
  block t is row 5000·t + p of the arrays, every row lies in exactly the block of its quotient by 5000, so the ten blocks
  written back make up the dense part of the layer applied to the arrays the call was entered with — whatever those arrays are.
-/
import proofs.«132234_j23089744183867_1_alg».proof.Proof.KernelIdealFrameP
import proofs.«132234_j23089744183867_1_alg».proof.Proof.Layer
import Idealize.ShloMosaic.Lib.Pipeline.Value
import Idealize.ShloMosaic.Lib.ValueLayout

set_option maxRecDepth 16384

noncomputable section

open scoped BigOperators

namespace Cert.KernelIdeal.Dense2

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat)

theorem zero_offsets : (![0, 0] : Fin 2 → Nat) = fun _ => 0 := funext fun a => by fin_cases a <;> rfl

/-- The value the body stores, at row `p` and column `q` of the block, from the three blocks it loads. -/
theorem stored_apply (x0 : Vec Ideal S5000x128 .f32) (x1 : Vec Ideal S128x64 .f32) (x2 : Vec Ideal S1x64 .f32)
    (p : Fin 5000) (q : Fin 64) :
    k2_pay1 (F := Ideal) x0 x1 x2 (ix2 p q)
      = ∑ k : Fin 128, x0 (ix2 p k) * x1 (ix2 k q) + x2 (ix2 (0 : Fin 1) q) := by
  have hprod : matmul (F := Ideal) dot_S5000x128_S128x64_S5000x64_1_0_0_1_n_n none
        (truncf .bf16 (shapeCast S5000x128 x0 shapeCasts_S5000x128_S5000x128) bitsLt_bf16_f32)
        (truncf .bf16 x1 bitsLt_bf16_f32) (constant S5000x64 .f32 0x00000000#32) (ix2 p q)
      = ∑ k : Fin 128, x0 (ix2 p k) * x1 (ix2 k q) := by
    refine (matmul_zero_rows dot_S5000x128_S128x64_S5000x64_1_0_0_1_n_n none rfl rfl (fun _ _ => rfl) (fun _ _ => rfl)
      (fun _ _ => rfl) (fun _ _ => rfl) _ _ p q).trans ?_
    refine Finset.sum_congr rfl fun k _ => ?_
    exact congrArg₂ (· * ·) (congrFun (shapeCast_self x0 shapeCasts_S5000x128_S5000x128) (ix2 p k)) rfl
  have hbias : broadcastTo S5000x64 (shapeCast S1x64 x2 shapeCasts_S1x64_S1x64) broadcasts_S1x64_S5000x64 (ix2 p q)
      = x2 (ix2 (0 : Fin 1) q) :=
    (broadcastTo_1b_ab_apply (shapeCast S1x64 x2 shapeCasts_S1x64_S1x64) broadcasts_S1x64_S5000x64 p q).trans
      (congrFun (shapeCast_self x2 shapeCasts_S1x64_S1x64) _)
  unfold k2_pay1
  exact congrArg₂ (· + ·) hprod hbias

/-- Row `p` of block `t` as a row of the whole array. -/
def rowOf (t : Fin cfg2.N) (p : Fin 5000) : Fin 50000 :=
  ⟨t.val * 5000 + p.val, by have ht : t.val < 10 := lt_of_lt_of_eq t.isLt N_2; have := p.isLt; omega⟩

/-- The printed index maps over the grid: the input and the result move one block of rows per point, the weights and the
    bias row stay. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem emb_in (t : Fin cfg2.N) (p : Fin 5000) (k : Fin 128) :
    ((cfg2.win 0).blk t).view.emb (ix2 p k) = (ix2 (rowOf t p) k : S50000x128.Idx) := by
  obtain ⟨e0, e1, -, -, -, -, -, -⟩ := index_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem emb_w (t : Fin cfg2.N) (k : Fin 128) (q : Fin 64) :
    ((cfg2.win 1).blk t).view.emb (ix2 k q) = (ix2 k q : S128x64.Idx) := by
  obtain ⟨-, -, e2, e3, -, -, -, -⟩ := index_facts t
  funext a; apply Fin.ext
  match a with
  | ⟨0, _⟩ => show win2_1.index t (0 : Fin 2) * 128 + 1 * k.val = k.val; omega
  | ⟨1, _⟩ => show win2_1.index t (1 : Fin 2) * 64 + 1 * q.val = q.val; omega

theorem emb_b (t : Fin cfg2.N) (u : Fin 1) (q : Fin 64) :
    ((cfg2.win 2).blk t).view.emb (ix2 u q) = (ix2 u q : S1x64.Idx) := by
  obtain ⟨-, -, -, -, e4, e5, -, -⟩ := index_facts t
  funext a; apply Fin.ext
  match a with
  | ⟨0, _⟩ => show win2_2.index t (0 : Fin 2) * 1 + 1 * u.val = u.val; omega
  | ⟨1, _⟩ => show win2_2.index t (1 : Fin 2) * 64 + 1 * q.val = q.val; omega

theorem emb_out (t : Fin cfg2.N) (p : Fin 5000) (q : Fin 64) :
    ((cfg2.win 3).blk t).view.emb (ix2 p q) = (ix2 (rowOf t p) q : S50000x64.Idx) := by
  obtain ⟨-, -, -, -, -, -, e6, e7⟩ := index_facts t
  funext a; apply Fin.ext
  match a with
  | ⟨0, _⟩ => show win2_3.index t (0 : Fin 2) * 5000 + 1 * p.val = t.val * 5000 + p.val; omega
  | ⟨1, _⟩ => show win2_3.index t (1 : Fin 2) * 64 + 1 * q.val = q.val; omega

variable (V : (c : Dev nD) → (b : Ref sig .tc) → Buf (Elt Ideal) ((c : Thread nD τ).loc b))

/-- What point `t` writes back is block `t` of the layer's dense part of the arrays the call was entered with. -/
theorem flushed_eq (c : Dev nD) (t : Fin cfg2.N) :
    (dat2 (F := Ideal) V c).flushed 3 t
      = ((cfg2.win 3).blk t).view.read (Elt Ideal)
          (Cert.Layer.denseLast (V c main_v54) (V c main_arg7) (V c main_v55)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x64) zero_offsets,
    View.ld_unit_zero (S := S1x64) zero_offsets]
  funext j
  obtain ⟨p, q, rfl⟩ : ∃ (p : Fin 5000) (q : Fin 64), j = ix2 p q := ⟨j 0, j 1, eq_ix2 j⟩
  refine (stored_apply (iblk2 V c 0 t) (iblk2 V c 1 t) (iblk2 V c 2 t) p q).trans ?_
  show _ = Cert.Layer.denseLast (V c main_v54) (V c main_arg7) (V c main_v55) (((cfg2.win 3).blk t).view.emb (ix2 p q))
  rw [emb_out t p q, Cert.Layer.denseLast_apply]
  have hin : ∀ k : Fin 128, iblk2 V c 0 t (ix2 p k) = V c main_v54 (ix2 (rowOf t p) k) :=
    fun k => congrArg (V c main_v54) (emb_in t p k)
  have hw : ∀ k : Fin 128, iblk2 V c 1 t (ix2 k q) = V c main_arg7 (ix2 k q) :=
    fun k => congrArg (V c main_arg7) (emb_w t k q)
  have hb : iblk2 V c 2 t (ix2 (0 : Fin 1) q) = V c main_v55 (ix2 (0 : Fin 1) q) :=
    congrArg (V c main_v55) (emb_b t 0 q)
  rw [hb]
  simp only [hin, hw]

/-- A row of the result lies in the block of its quotient by 5000. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v56).slice (win2_3.rect t)).set ↔ _
  rw [View.set_slice_whole, Rect.mem_set_unit]
  exact Iff.rfl

theorem covered (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  let t : Fin cfg2.N := ⟨(i 0).val / 5000, lt_of_lt_of_eq (by omega : (i 0).val / 5000 < 10) N_2.symm⟩
  obtain ⟨-, -, -, -, -, -, e6, e7⟩ := index_facts t
  have e6' : win2_3.index t (0 : Fin 2) = (i 0).val / 5000 := e6
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE RESULT ARRAY when the call returns: the layer's dense part of the arrays it was entered with. -/
theorem value (c : Dev nD) :
    (dat2 (F := Ideal) V c).arrAt 3 cfg2.N
      = Cert.Layer.denseLast (V c main_v54) (V c main_arg7) (V c main_v55) :=
  (dat2 (F := Ideal) V c).arrAt_eq_of_cover 3 _ (fun t _ => flushed_eq V c t) covered

end Cert.KernelIdeal.Dense2

end
-- ==== Proof.KernelChain.lean ====
/-
  The idealized kernel's result array is the network of Layer.lean applied to its arguments.

  The buffers' contents at the six segment boundaries of @main are followed from the launch memory to the return.  A stretch
  of host operations leaves, in the buffer the next call reads as its input, the sparse product of what it found — the
  arguments' edge table and weights, and the features: the argument x before the first call, the previous call's result
  before the others —; in the bias buffer the bias vector laid out as a single row, which is the same array as the vector
  broadcast along a new unit axis; and it leaves every argument as it was.  A call leaves in its result array the layer's
  dense part of the arrays it was entered with (the three dense modules) and every other buffer untouched.  Substituting
  boundary by boundary gives the network.
-/
import proofs.«132234_j23089744183867_1_alg».proof.Proof.KernelIdealFrameP
import proofs.«132234_j23089744183867_1_alg».proof.Proof.Dense0
import proofs.«132234_j23089744183867_1_alg».proof.Proof.Dense1
import proofs.«132234_j23089744183867_1_alg».proof.Proof.Dense2
import proofs.«132234_j23089744183867_1_alg».proof.Proof.Layer
import proofs.«132234_j23089744183867_1_alg».proof.Proof.LibHostRowScalar
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.KernelIdeal.GenP

/-! ## What a stretch of host operations leaves, from any contents `W` -/

/-- Stretch 0 leaves the sparse product of the features it finds in the next call's input buffer. -/
theorem stretch0_in (W : Valuation τ sig (Elt Ideal)) :
    StableHlo.after (hostOps0 (F := Ideal)) W (Proc.devRef .tc main_v16)
      = Cert.Layer.spmm (W (Proc.devRef .tc main_arg0)) (W (Proc.devRef .tc main_arg1)) (W (Proc.devRef .tc main_arg2)) := by
  after_results_simp
  rfl

/-- Stretch 0 leaves the bias vector, laid out as one row, in the next call's bias buffer. -/
theorem stretch0_bias (W : Valuation τ sig (Elt Ideal)) :
    StableHlo.after (hostOps0 (F := Ideal)) W (Proc.devRef .tc main_v17)
      = shapeCast S1x128 (W (Proc.devRef .tc main_arg4)) shapeCasts_S128_S1x128 := by
  after_results_simp
  rfl

theorem stretch0_keeps_arg1 (W : Valuation τ sig (Elt Ideal)) :
    StableHlo.after (hostOps0 (F := Ideal)) W (Proc.devRef .tc main_arg1) = W (Proc.devRef .tc main_arg1) := by
  after_results_simp

theorem stretch0_keeps_arg2 (W : Valuation τ sig (Elt Ideal)) :
    StableHlo.after (hostOps0 (F := Ideal)) W (Proc.devRef .tc main_arg2) = W (Proc.devRef .tc main_arg2) := by
  after_results_simp

theorem stretch0_keeps_arg3 (W : Valuation τ sig (Elt Ideal)) :
    StableHlo.after (hostOps0 (F := Ideal)) W (Proc.devRef .tc main_arg3) = W (Proc.devRef .tc main_arg3) := by
  after_results_simp

theorem stretch0_keeps_arg5 (W : Valuation τ sig (Elt Ideal)) :
    StableHlo.after (hostOps0 (F := Ideal)) W (Proc.devRef .tc main_arg5) = W (Proc.devRef .tc main_arg5) := by
  after_results_simp

theorem stretch0_keeps_arg6 (W : Valuation τ sig (Elt Ideal)) :
    StableHlo.after (hostOps0 (F := Ideal)) W (Proc.devRef .tc main_arg6) = W (Proc.devRef .tc main_arg6) := by
  after_results_simp

theorem stretch0_keeps_arg7 (W : Valuation τ sig (Elt Ideal)) :
    StableHlo.after (hostOps0 (F := Ideal)) W (Proc.devRef .tc main_arg7) = W (Proc.devRef .tc main_arg7) := by
  after_results_simp

theorem stretch0_keeps_arg8 (W : Valuation τ sig (Elt Ideal)) :
    StableHlo.after (hostOps0 (F := Ideal)) W (Proc.devRef .tc main_arg8) = W (Proc.devRef .tc main_arg8) := by
  after_results_simp

/-- Stretch 1 leaves the sparse product of the features it finds in the next call's input buffer. -/
theorem stretch1_in (W : Valuation τ sig (Elt Ideal)) :
    StableHlo.after (hostOps1 (F := Ideal)) W (Proc.devRef .tc main_v35)
      = Cert.Layer.spmm (W (Proc.devRef .tc main_v18)) (W (Proc.devRef .tc main_arg1)) (W (Proc.devRef .tc main_arg2)) := by
  after_results_simp
  rfl

/-- Stretch 1 leaves the bias vector, laid out as one row, in the next call's bias buffer. -/
theorem stretch1_bias (W : Valuation τ sig (Elt Ideal)) :
    StableHlo.after (hostOps1 (F := Ideal)) W (Proc.devRef .tc main_v36)
      = shapeCast S1x128 (W (Proc.devRef .tc main_arg6)) shapeCasts_S128_S1x128 := by
  after_results_simp
  rfl

theorem stretch1_keeps_arg1 (W : Valuation τ sig (Elt Ideal)) :
    StableHlo.after (hostOps1 (F := Ideal)) W (Proc.devRef .tc main_arg1) = W (Proc.devRef .tc main_arg1) := by
  after_results_simp

theorem stretch1_keeps_arg2 (W : Valuation τ sig (Elt Ideal)) :
    StableHlo.after (hostOps1 (F := Ideal)) W (Proc.devRef .tc main_arg2) = W (Proc.devRef .tc main_arg2) := by
  after_results_simp

theorem stretch1_keeps_arg5 (W : Valuation τ sig (Elt Ideal)) :
    StableHlo.after (hostOps1 (F := Ideal)) W (Proc.devRef .tc main_arg5) = W (Proc.devRef .tc main_arg5) := by
  after_results_simp

theorem stretch1_keeps_arg7 (W : Valuation τ sig (Elt Ideal)) :
    StableHlo.after (hostOps1 (F := Ideal)) W (Proc.devRef .tc main_arg7) = W (Proc.devRef .tc main_arg7) := by
  after_results_simp

theorem stretch1_keeps_arg8 (W : Valuation τ sig (Elt Ideal)) :
    StableHlo.after (hostOps1 (F := Ideal)) W (Proc.devRef .tc main_arg8) = W (Proc.devRef .tc main_arg8) := by
  after_results_simp

/-- Stretch 2 leaves the sparse product of the features it finds in the next call's input buffer. -/
theorem stretch2_in (W : Valuation τ sig (Elt Ideal)) :
    StableHlo.after (hostOps2 (F := Ideal)) W (Proc.devRef .tc main_v54)
      = Cert.Layer.spmm (W (Proc.devRef .tc main_v37)) (W (Proc.devRef .tc main_arg1)) (W (Proc.devRef .tc main_arg2)) := by
  after_results_simp
  rfl

/-- Stretch 2 leaves the bias vector, laid out as one row, in the next call's bias buffer. -/
theorem stretch2_bias (W : Valuation τ sig (Elt Ideal)) :
    StableHlo.after (hostOps2 (F := Ideal)) W (Proc.devRef .tc main_v55)
      = shapeCast S1x64 (W (Proc.devRef .tc main_arg8)) shapeCasts_S64_S1x64 := by
  after_results_simp
  rfl

theorem stretch2_keeps_arg7 (W : Valuation τ sig (Elt Ideal)) :
    StableHlo.after (hostOps2 (F := Ideal)) W (Proc.devRef .tc main_arg7) = W (Proc.devRef .tc main_arg7) := by
  after_results_simp

/-! ## The arguments at the boundaries: as launched -/

variable (m : (ℓ : Loc nD τ sig) → Buf (Elt Ideal) ℓ) (ρ : Dev nD → PrngReg)

theorem W1_arg1 (c : Dev nD) : W1 m ρ c (Proc.devRef .tc main_arg1) = m ((c : Thread nD τ).loc main_arg1) :=
  stretch0_keeps_arg1 (W0 m ρ c)
theorem W1_arg2 (c : Dev nD) : W1 m ρ c (Proc.devRef .tc main_arg2) = m ((c : Thread nD τ).loc main_arg2) :=
  stretch0_keeps_arg2 (W0 m ρ c)
theorem W1_arg3 (c : Dev nD) : W1 m ρ c (Proc.devRef .tc main_arg3) = m ((c : Thread nD τ).loc main_arg3) :=
  stretch0_keeps_arg3 (W0 m ρ c)
theorem W1_arg5 (c : Dev nD) : W1 m ρ c (Proc.devRef .tc main_arg5) = m ((c : Thread nD τ).loc main_arg5) :=
  stretch0_keeps_arg5 (W0 m ρ c)
theorem W1_arg6 (c : Dev nD) : W1 m ρ c (Proc.devRef .tc main_arg6) = m ((c : Thread nD τ).loc main_arg6) :=
  stretch0_keeps_arg6 (W0 m ρ c)
theorem W1_arg7 (c : Dev nD) : W1 m ρ c (Proc.devRef .tc main_arg7) = m ((c : Thread nD τ).loc main_arg7) :=
  stretch0_keeps_arg7 (W0 m ρ c)
theorem W1_arg8 (c : Dev nD) : W1 m ρ c (Proc.devRef .tc main_arg8) = m ((c : Thread nD τ).loc main_arg8) :=
  stretch0_keeps_arg8 (W0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W3_arg1 (c : Dev nD) : W3 m ρ c (Proc.devRef .tc main_arg1) = m ((c : Thread nD τ).loc main_arg1) :=
  (stretch1_keeps_arg1 (W2 m ρ c)).trans (W2_arg1 m ρ c)
theorem W3_arg2 (c : Dev nD) : W3 m ρ c (Proc.devRef .tc main_arg2) = m ((c : Thread nD τ).loc main_arg2) :=
  (stretch1_keeps_arg2 (W2 m ρ c)).trans (W2_arg2 m ρ c)
theorem W3_arg5 (c : Dev nD) : W3 m ρ c (Proc.devRef .tc main_arg5) = m ((c : Thread nD τ).loc main_arg5) :=
  (stretch1_keeps_arg5 (W2 m ρ c)).trans (W2_arg5 m ρ c)
theorem W3_arg7 (c : Dev nD) : W3 m ρ c (Proc.devRef .tc main_arg7) = m ((c : Thread nD τ).loc main_arg7) :=
  (stretch1_keeps_arg7 (W2 m ρ c)).trans (W2_arg7 m ρ c)
theorem W3_arg8 (c : Dev nD) : W3 m ρ c (Proc.devRef .tc main_arg8) = m ((c : Thread nD τ).loc main_arg8) :=
  (stretch1_keeps_arg8 (W2 m ρ c)).trans (W2_arg8 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)

/-! ## The results of the calls -/

/-- The first call's result: the first layer of the arguments. -/
theorem first_layer (c : Dev nD) :
    W2 m ρ c (Proc.devRef .tc main_v18)
      = Cert.Layer.denseRelu (Cert.Layer.spmm (m ((c : Thread nD τ).loc main_arg0)) (m ((c : Thread nD τ).loc main_arg1)) (m ((c : Thread nD τ).loc main_arg2))) (m ((c : Thread nD τ).loc main_arg3))
          (broadcastInDim Cert.ReferenceIdeal.S1x128 ![1] Cert.ReferenceIdeal.Gen.bcast_S128_S1x128_1 (m ((c : Thread nD τ).loc main_arg4))) := by
  have hin : V1 m ρ c main_v16 = Cert.Layer.spmm (m ((c : Thread nD τ).loc main_arg0)) (m ((c : Thread nD τ).loc main_arg1)) (m ((c : Thread nD τ).loc main_arg2)) := stretch0_in (W0 m ρ c)
  have hw : V1 m ρ c main_arg3 = m ((c : Thread nD τ).loc main_arg3) := W1_arg3 m ρ c
  have hb : V1 m ρ c main_v17
      = broadcastInDim Cert.ReferenceIdeal.S1x128 ![1] Cert.ReferenceIdeal.Gen.bcast_S128_S1x128_1 (m ((c : Thread nD τ).loc main_arg4)) :=
    (stretch0_bias (W0 m ρ c)).trans (shapeCast_row_eq_broadcastInDim _ _ _)
  have e : W2 m ρ c (Proc.devRef .tc main_v18) = (dat0 (V1 m ρ) c).arrAt 3 cfg0.N := W2_arr m ρ c 3
  rw [e, Dense0.value, hin, hw, hb]

/-- The second call's result: the second layer of the first. -/
theorem second_layer (c : Dev nD) :
    W4 m ρ c (Proc.devRef .tc main_v37)
      = Cert.Layer.denseRelu (Cert.Layer.spmm (W2 m ρ c (Proc.devRef .tc main_v18)) (m ((c : Thread nD τ).loc main_arg1)) (m ((c : Thread nD τ).loc main_arg2))) (m ((c : Thread nD τ).loc main_arg5))
          (broadcastInDim Cert.ReferenceIdeal.S1x128 ![1] Cert.ReferenceIdeal.Gen.bcast_S128_S1x128_1 (m ((c : Thread nD τ).loc main_arg6))) := by
  have hin : V3 m ρ c main_v35 = Cert.Layer.spmm (W2 m ρ c (Proc.devRef .tc main_v18)) (m ((c : Thread nD τ).loc main_arg1)) (m ((c : Thread nD τ).loc main_arg2)) :=
    (stretch1_in (W2 m ρ c)).trans (by rw [W2_arg1, W2_arg2])
  have hw : V3 m ρ c main_arg5 = m ((c : Thread nD τ).loc main_arg5) := W3_arg5 m ρ c
  have hb : V3 m ρ c main_v36
      = broadcastInDim Cert.ReferenceIdeal.S1x128 ![1] Cert.ReferenceIdeal.Gen.bcast_S128_S1x128_1 (m ((c : Thread nD τ).loc main_arg6)) :=
    ((stretch1_bias (W2 m ρ c)).trans (by rw [W2_arg6])).trans (shapeCast_row_eq_broadcastInDim _ _ _)
  have e : W4 m ρ c (Proc.devRef .tc main_v37) = (dat1 (V3 m ρ) c).arrAt 3 cfg1.N := W4_arr m ρ c 3
  rw [e, Dense1.value, hin, hw, hb]

/-- The third call's result: the last layer of the second. -/
theorem third_layer (c : Dev nD) :
    W6 m ρ c (Proc.devRef .tc main_v56)
      = Cert.Layer.denseLast (Cert.Layer.spmm (W4 m ρ c (Proc.devRef .tc main_v37)) (m ((c : Thread nD τ).loc main_arg1)) (m ((c : Thread nD τ).loc main_arg2))) (m ((c : Thread nD τ).loc main_arg7))
          (broadcastInDim Cert.ReferenceIdeal.S1x64 ![1] Cert.ReferenceIdeal.Gen.bcast_S64_S1x64_1 (m ((c : Thread nD τ).loc main_arg8))) := by
  have hin : V5 m ρ c main_v54 = Cert.Layer.spmm (W4 m ρ c (Proc.devRef .tc main_v37)) (m ((c : Thread nD τ).loc main_arg1)) (m ((c : Thread nD τ).loc main_arg2)) :=
    (stretch2_in (W4 m ρ c)).trans (by rw [W4_arg1, W4_arg2])
  have hw : V5 m ρ c main_arg7 = m ((c : Thread nD τ).loc main_arg7) := (stretch2_keeps_arg7 (W4 m ρ c)).trans (W4_arg7 m ρ c)
  have hb : V5 m ρ c main_v55
      = broadcastInDim Cert.ReferenceIdeal.S1x64 ![1] Cert.ReferenceIdeal.Gen.bcast_S64_S1x64_1 (m ((c : Thread nD τ).loc main_arg8)) :=
    ((stretch2_bias (W4 m ρ c)).trans (by rw [W4_arg8])).trans (shapeCast_row_eq_broadcastInDim _ _ _)
  have e : W6 m ρ c (Proc.devRef .tc main_v56) = (dat2 (V5 m ρ) c).arrAt 3 cfg2.N := W6_arr m ρ c 3
  rw [e, Dense2.value, hin, hw, hb]

/-- THE RESULT: when @main returns, its result buffer holds the network of the argument arrays. -/
theorem result_eq (c : Dev nD) :
    W6 m ρ c (Proc.devRef .tc main_v56)
      = Cert.Layer.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [third_layer, second_layer, first_layer]
  rfl

end Cert.KernelIdeal.Chain

end
-- ==== Proof.RefValue.lean ====
/-
  The reference program's result is the network of Layer.lean applied to its arguments: its operations, composed, are three
  times the sparse product followed by the dense part, the bias of each layer entering as the single row built from its vector.
-/
import proofs.«132234_j23089744183867_1_alg».proof.Proof.Gen.ReferenceIdeal.Run
import proofs.«132234_j23089744183867_1_alg».proof.Proof.Layer

set_option maxRecDepth 8192

noncomputable section

namespace Cert.ReferenceIdeal.RefValue

open Idealize.ShloMosaic Idealize.ShloMosaic.TcCoe Idealize.SL.Sem Cert.ReferenceIdeal Cert.ReferenceIdeal.Gen

/-- The composed term of the reference's run is the network of its argument arrays. -/
theorem result_eq (m : (ℓ : Loc nD τ sig) → Buf (Elt Ideal) ℓ) (c : Dev nD) :
    Cert.ReferenceIdeal.Value.res_out0 (F := Ideal) m c
      = Cert.Layer.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  show Cert.ReferenceIdeal.Value.res_main_v66 (F := Ideal) m c = _
  unfold Cert.ReferenceIdeal.Value.res_main_v66 Cert.Layer.net Cert.Layer.denseLast Cert.Layer.denseRelu Cert.Layer.spmm
  rfl

end Cert.ReferenceIdeal.RefValue

end
-- ==== Proof.lean ====
/-
  The certificate of a three-layer graph network: each layer a sparse product over the edge list (a gather of source rows,
  scaled by the edge weights and added into the destination rows) followed by a dense product with a weight matrix, a bias and,
  in the first two layers, a clamp below at zero.  The kernel computes the dense part of each layer in a pallas call over ten
  blocks of 5000 rows, with the operands converted to bf16 before the product; the reference computes it with one host product.

  At the ideal values a change of float format is the identity and both products are the plain sum over the contracted index,
  so block by block the call writes exactly the rows the host product computes (the dense modules); the host operations
  between the calls are the same in both programs (the chain module follows the kernel's buffers from boundary to boundary; the
  reference's composed term is the same network by unfolding).  No law of the extended reals beyond that is needed, so the
  precondition is never opened.

  The three frames: the two kernels' are the generated frame proofs, the reference's is its generated run with the result
  dropped.  No operation was rewritten by the ideal pass, so the preservation claim is trivial.
-/
import proofs.«132234_j23089744183867_1_alg».proof.Defs
import proofs.«132234_j23089744183867_1_alg».proof.Proof.Gen.Kernel
import proofs.«132234_j23089744183867_1_alg».proof.Proof.Gen.KernelIdeal
import proofs.«132234_j23089744183867_1_alg».proof.Proof.Gen.ReferenceIdeal
import proofs.«132234_j23089744183867_1_alg».proof.Proof.Gen.Pre_finite_inputs
import proofs.«132234_j23089744183867_1_alg».proof.Proof.Gen.ReferenceIdeal.Run
import proofs.«132234_j23089744183867_1_alg».proof.Proof.KernelFrameP
import proofs.«132234_j23089744183867_1_alg».proof.Proof.KernelIdealFrameP
import proofs.«132234_j23089744183867_1_alg».proof.Proof.KernelRun
import proofs.«132234_j23089744183867_1_alg».proof.Proof.KernelChain
import proofs.«132234_j23089744183867_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) argument arrays in their result buffers. -/
theorem algebraic : Cert.algebraic_KernelIdeal_ReferenceIdeal := by
  intro m ρ m' ρ' _ hagree
  refine ⟨fun c => Cert.Layer.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result_eq m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    refine (Cert.ReferenceIdeal.RefValue.result_eq m' c).trans ?_
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
